-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x40 .f32) (main_arg5 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 80
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x40, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x40, .f32⟩
  | .hbm, ⟨71, _⟩ => ⟨S1700000x1, .f32⟩
  | .hbm, ⟨72, _⟩ => ⟨S1700000x40, .f32⟩
  | .hbm, ⟨73, _⟩ => ⟨S1700000x40, .f32⟩
  | .hbm, ⟨74, _⟩ => ⟨S_, .f32⟩
  | .hbm, ⟨75, _⟩ => ⟨S100000x40, .f32⟩
  | .hbm, ⟨76, _⟩ => ⟨S1700000x1, .i32⟩
  | .hbm, ⟨77, _⟩ => ⟨S100000x40, .f32⟩
  | .hbm, ⟨78, _⟩ => ⟨S1x40, .f32⟩
  | .hbm, ⟨79, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 100
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x40, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x40, .f32⟩
  | .hbm, ⟨75, _⟩ => ⟨S1700000x1, .f32⟩
  | .hbm, ⟨76, _⟩ => ⟨S1700000x40, .f32⟩
  | .hbm, ⟨77, _⟩ => ⟨S1700000x40, .f32⟩
  | .hbm, ⟨78, _⟩ => ⟨S_, .f32⟩
  | .hbm, ⟨79, _⟩ => ⟨S100000x40, .f32⟩
  | .hbm, ⟨80, _⟩ => ⟨S1700000x1, .i32⟩
  | .hbm, ⟨81, _⟩ => ⟨S100000x40, .f32⟩
  | .hbm, ⟨82, _⟩ => ⟨S1x40, .f32⟩
  | .hbm, ⟨83, _⟩ => ⟨S100000x40, .f32⟩
  | .hbm, ⟨84, _⟩ => ⟨S100000x40, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S100000x1, .f32⟩
  | .hbm, ⟨91, _⟩ => ⟨S100000x40, .f32⟩
  | .hbm, ⟨92, _⟩ => ⟨S100000x40, .f32⟩
  | .hbm, ⟨93, _⟩ => ⟨S100000x40, .f32⟩
  | .hbm, ⟨94, _⟩ => ⟨S_, .f32⟩
  | .hbm, ⟨95, _⟩ => ⟨S100000, .f32⟩
  | .hbm, ⟨96, _⟩ => ⟨S100000x1, .f32⟩
  | .hbm, ⟨97, _⟩ => ⟨S100000x1, .f32⟩
  | .hbm, ⟨98, _⟩ => ⟨S100000x40, .f32⟩
  | .hbm, ⟨99, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_cst : Ref sig .tc := ⟨.hbm, 85, rfl⟩
abbrev main_call1_v0 : Ref sig .tc := ⟨.hbm, 86, rfl⟩
abbrev main_call1_cst_0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_cst_1 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_v64 : Ref sig .tc := ⟨.hbm, 99, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel program's run with its result named.

  The program is four pipelined regions among three stretches of host operations. The generated frame proof
  follows the buffer contents through the seven segments (W0 at launch, …, W7 at the return) and concludes that
  the arguments end unchanged. The same launch rule, with the last thread state read at one more buffer, also
  says that the result buffer ends at W7's contents there: that is all this module adds.
-/
import proofs.«132702_j89833535963136_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result buffer holding the last
    boundary's contents and the arguments what they were launched with. -/
theorem run_result : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Run

end
-- ==== Proof.Stages.lean ====
/-
  The stages of a two-layer graph convolution, each as one function of whole arrays on the extended reals.

  With self-loops appended to the edge list, node degrees counted over the edge targets, and the symmetric
  normaliser norm[e] = d[src e] · d[dst e] where d = 1/√(max(deg, 1)), a layer is
      aggregate(h)[n] = Σ_{e : dst e = n} h[src e] · norm[e],
  applied after a dense product; the first layer ends in max(· + b₁, 0), the second in the row-wise
  log-softmax of (· + b₂). Every stage is written with the host's operations, so that the reference program
  is, literally, their composition; the kernel's regions are proved to compute the dense products and the two
  bias stages, and share the aggregation with the reference operation by operation.
-/
import proofs.«132702_j89833535963136_1_alg».proof.ReferenceIdeal
import Idealize.ShloMosaic.PureOps.Ideal

noncomputable section

namespace Cert.Stages

open Idealize.ShloMosaic Cert.ReferenceIdeal Cert.ReferenceIdeal.Facts₀ Cert.ReferenceIdeal.Facts

variable [Cert.ReferenceIdeal.Facts]

/-- Integer and float arrays of the shapes the stages pass around. -/
abbrev IArr (s : Shape) := IVec s 32
abbrev FArr (s : Shape) := FVec Ideal s .f32

/-- Row `r` of the 2 × E edge list followed by the self-loops 0 … N−1: the sources (r = 0) or targets (r = 1). -/
def ends0 (E : IArr S2x1600000) : IArr S1700000 :=
  concatenate S1700000 0 [⟨S1600000, (shapeCast _ (extractStridedSlice S1x1600000 ![0, 0] E slices_S2x1600000_S1x1600000_0_0) shapeCasts_S1x1600000_S1600000)⟩, ⟨S100000, (iotaInDim S100000 32 0)⟩] concatenates_S1600000_S100000_S1700000_d0
def ends1 (E : IArr S2x1600000) : IArr S1700000 :=
  concatenate S1700000 0 [⟨S1600000, (shapeCast _ (extractStridedSlice S1x1600000 ![1, 0] E slices_S2x1600000_S1x1600000_1_0) shapeCasts_S1x1600000_S1600000)⟩, ⟨S100000, (iotaInDim S100000 32 0)⟩] concatenates_S1600000_S100000_S1700000_d0

/-- An index vector as gather start indices: negative entries wrapped by N, then laid out as a column. -/
def starts (v : IArr S1700000) : IArr S1700000x1 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- d = 1/√(max(deg, 1)), the degree counted by scattering ones onto the targets. -/
def dinv (E : IArr S2x1600000) : FArr S100000 :=
  Host.rsqrt (F := Ideal) (maximumf
    (Host.scatterAdd (F := Ideal) scatter_S100000_S1700000x1_S1700000_n_0_0_1
      (broadcastInDim S100000 ![] bcast_S_S100000 (constant (F := Ideal) S_ .f32 0x00000000#32))
      (broadcastInDim S1700000x1 ![0] bcast_S1700000_S1700000x1_0 (ends1 E))
      (broadcastInDim S1700000 ![] bcast_S_S1700000 (constant (F := Ideal) S_ .f32 0x3F800000#32)))
    (broadcastInDim S100000 ![] bcast_S_S100000 (constant (F := Ideal) S_ .f32 0x3F800000#32)))

/-- norm[e] = d[src e] · d[dst e]. -/
def norm (E : IArr S2x1600000) : FArr S1700000 :=
  mulf (Host.gather gather_S100000_S1700000x1_S1700000_n_0_n_n_0_1_1 (dinv E) (starts (ends0 E)))
    (Host.gather gather_S100000_S1700000x1_S1700000_n_0_n_n_0_1_1 (dinv E) (starts (ends1 E)))

/-- One aggregation over 128 features: gather the source rows, scale by norm, scatter-add onto the targets. -/
def agg128 (h : FArr S100000x128) (src dst : IArr S1700000) (nrm : FArr S1700000) : FArr S100000x128 :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (mulf (Host.gather gather_S100000x128_S1700000x1_S1700000x128_1_0_n_n_0_1_1128 h (starts src))
      (broadcastInDim S1700000x128 ![0, 1] bcast_S1700000x1_S1700000x128_0_1 (broadcastInDim S1700000x1 ![0] bcast_S1700000_S1700000x1_0 nrm)))

/-- The same over 40 features. -/
def agg40 (h : FArr S100000x40) (src dst : IArr S1700000) (nrm : FArr S1700000) : FArr S100000x40 :=
  Host.scatterAdd (F := Ideal) scatter_S100000x40_S1700000x1_S1700000x40_1_0_0_1
    (broadcastInDim S100000x40 ![] bcast_S_S100000x40 (constant (F := Ideal) S_ .f32 0x00000000#32))
    (broadcastInDim S1700000x1 ![0] bcast_S1700000_S1700000x1_0 dst)
    (mulf (Host.gather gather_S100000x40_S1700000x1_S1700000x40_1_0_n_n_0_1_140 h (starts src))
      (broadcastInDim S1700000x40 ![0, 1] bcast_S1700000x1_S1700000x40_0_1 (broadcastInDim S1700000x1 ![0] bcast_S1700000_S1700000x1_0 nrm)))

/-- The dense products x · W₁ and h · W₂. -/
def dense1 (x : FArr S100000x256) (w : FArr S256x128) : FArr S100000x128 :=
  Host.dotGeneral (F := Ideal) dot_S100000x256_S256x128_S100000x128_1_0_0_1_n_n none x w
def dense2 (h : FArr S100000x128) (w : FArr S128x40) : FArr S100000x40 :=
  Host.dotGeneral (F := Ideal) dot_S100000x128_S128x40_S100000x40_1_0_0_1_n_n none h w

/-- A bias vector as a one-row matrix. -/
def row128 (b : FArr S128) : FArr S1x128 := broadcastInDim S1x128 ![1] bcast_S128_S1x128_1 b
def row40 (b : FArr S40) : FArr S1x40 := broadcastInDim S1x40 ![1] bcast_S40_S1x40_1 b

/-- max(a + b, 0), the bias row repeated down the rows. -/
def biasRelu (a : FArr S100000x128) (brow : FArr S1x128) : FArr S100000x128 :=
  maximumf (addf a (broadcastInDim S100000x128 ![0, 1] bcast_S1x128_S100000x128_0_1 brow))
    (broadcastInDim S100000x128 ![] bcast_S_S100000x128 (constant (F := Ideal) S_ .f32 0x00000000#32))

/-- An array shifted by its row maxima. -/
def shiftRows (z : FArr S100000x40) : FArr S100000x40 :=
  subf z (broadcastInDim S100000x40 ![0, 1] bcast_S100000x1_S100000x40_0_1 (broadcastInDim S100000x1 ![0] bcast_S100000_S100000x1_0
    (maximumf (broadcastInDim S100000 ![] bcast_S_S100000 (constant (F := Ideal) S_ .f32 0xFF800000#32))
      (Host.reduce (FloatOps.maximumf (F := Ideal) (φ := .f32)) z (constant (F := Ideal) S_ .f32 0xFF800000#32) reducesTo_S100000x40_S100000_d1 h_S_))))

/-- The row-wise log-softmax: the shifted array minus the logarithm of its rows' summed exponentials. -/
def logSoftmaxRows (z : FArr S100000x40) : FArr S100000x40 :=
  subf (shiftRows z) (broadcastInDim S100000x40 ![0, 1] bcast_S100000x1_S100000x40_0_1 (Host.log (F := Ideal) (broadcastInDim S100000x1 ![0] bcast_S100000_S100000x1_0
    (Host.reduceAdd (F := Ideal) (Host.exp (F := Ideal) (shiftRows z)) (constant (F := Ideal) S_ .f32 0x00000000#32) reducesTo_S100000x40_S100000_d1 h_S_))))

/-- log_softmax(a + b) along the rows, the bias row repeated down the rows. -/
def biasLogSoftmax (a : FArr S100000x40) (brow : FArr S1x40) : FArr S100000x40 :=
  logSoftmaxRows (addf a (broadcastInDim S100000x40 ![0, 1] bcast_S1x40_S100000x40_0_1 brow))

/-- The whole network: two layers on the graph given by the edge list. -/
def out (x : FArr S100000x256) (E : IArr S2x1600000) (w1 : FArr S256x128) (b1 : FArr S128) (w2 : FArr S128x40) (b2 : FArr S40) :
    FArr S100000x40 :=
  biasLogSoftmax (agg40 (dense2 (biasRelu (agg128 (dense1 x w1) (ends0 E) (ends1 E) (norm E)) (row128 b1)) w2)
    (ends0 E) (ends1 E) (norm E)) (row40 b2)

end Cert.Stages

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.LibCastBroadcast.lean ====
/-
  A vector placed along one axis of a two-axis array: reshaping and broadcasting agree.

  A vector of length n laid out as the column [n, 1] by a reshape is the same array as the vector broadcast to [n, 1]
  along axis 0, and laid out as the row [1, n] the same as the vector broadcast to [1, n] along axis 1: in each
  case entry (r, 0), respectively (0, r), is the vector's entry r. (For n = 1 a broadcast reads a unit axis at
  coordinate 0, which is the same entry; the statements below ask n ≠ 1 only because the broadcast rule branches
  on it.) Nothing here depends on a program.
-/
import Idealize.ShloMosaic.Lib.Pipeline.Value
import Idealize.ShloMosaic.Lib.ValueLayout
import Idealize.ShloMosaic.Lib.ValueIdx

noncomputable section

namespace Cert.CastBroadcast

open Idealize.ShloMosaic Idealize.ShloMosaic.ValueIdx

/-- The column [n, 1] of a vector: by reshape or by broadcast along axis 0. -/
theorem col_eq {α : Type} {n : ℕ} (hn : n ≠ 1) (v : (⟨1, ![n]⟩ : Shape).Idx → α)
    (h : (⟨1, ![n]⟩ : Shape).ShapeCasts ⟨2, ![n, 1]⟩) (h' : (⟨1, ![n]⟩ : Shape).BroadcastsInDim ⟨2, ![n, 1]⟩ ![0]) :
    shapeCast ⟨2, ![n, 1]⟩ v h = broadcastInDim ⟨2, ![n, 1]⟩ ![0] h' v := by
  funext i
  obtain ⟨r, u, rfl⟩ : ∃ (r : Fin n) (u : Fin 1), i = ix2 r u := ⟨i 0, i 1, eq_ix2 i⟩
  have e1 : shapeCast ⟨2, ![n, 1]⟩ v h (ix2 r u) = v (ix1 r) :=
    shapeCast_apply v h _ _ (by
      have hu : u.val = 0 := by omega
      rw [Shape.rowMajor_val_two, Shape.rowMajor_val_one]
      show r.val = r.val * 1 + u.val
      rw [hu, Nat.mul_one, Nat.add_zero])
  have e2 : broadcastInDim ⟨2, ![n, 1]⟩ ![0] h' v (ix2 r u) = v (ix1 r) :=
    broadcastInDim_apply ![0] h' v (ix2 r u) (ix1 r) (fun a => by
      match a with
      | ⟨0, _⟩ => show r.val = if n = 1 then 0 else r.val; rw [if_neg hn])
  rw [e1, e2]

/-- The row [1, n] of a vector: by reshape or by broadcast along axis 1. -/
theorem row_eq {α : Type} {n : ℕ} (hn : n ≠ 1) (v : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ v h = broadcastInDim ⟨2, ![1, n]⟩ ![1] h' v := by
  funext i
  obtain ⟨u, r, rfl⟩ : ∃ (u : Fin 1) (r : Fin n), i = ix2 u r := ⟨i 0, i 1, eq_ix2 i⟩
  have e1 : shapeCast ⟨2, ![1, n]⟩ v h (ix2 u r) = v (ix1 r) :=
    shapeCast_apply v h _ _ (by
      have hu : u.val = 0 := by omega
      rw [Shape.rowMajor_val_two, Shape.rowMajor_val_one]
      show r.val = u.val * n + r.val
      rw [hu, Nat.zero_mul, Nat.zero_add])
  have e2 : broadcastInDim ⟨2, ![1, n]⟩ ![1] h' v (ix2 u r) = v (ix1 r) :=
    broadcastInDim_apply ![1] h' v (ix2 u r) (ix1 r) (fun a => by
      match a with
      | ⟨0, _⟩ => show r.val = if n = 1 then 0 else r.val; rw [if_neg hn])
  rw [e1, e2]

end Cert.CastBroadcast

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.Region0.lean ====
/-
  The first region: x · W₁, block by block.

  The region walks the [100000, 256] left operand in 20 blocks of 5000 rows, with the whole [256, 128] right operand
  at every point; at each block it forms the product of the block with the right operand into a zero
  accumulator (the change of float format of the operands is the identity on the extended reals) and writes
  the [5000, 128] result block back. Row n = 5000·t + p of the output therefore holds, at column c, the sum over q of
  l[n, q] · r[q, c]: the host's one whole product.
-/
import proofs.«132702_j89833535963136_1_alg».proof.Proof.Gen.KernelIdeal.Frame
import proofs.«132702_j89833535963136_1_alg».proof.Proof.Gen.ReferenceIdeal
import proofs.«132702_j89833535963136_1_alg».proof.Proof.Stages
import proofs.«132702_j89833535963136_1_alg».proof.Proof.LibPlainDot
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region0

open Idealize.ShloMosaic Idealize.ShloMosaic.ValueIdx Idealize.ShloMosaic.TcCoe Idealize.SL.Sem
open Cert.KernelIdeal Cert.KernelIdeal.Gen

theorem hz : (![0, 0] : Fin 2 → Nat) = fun _ => 0 := funext fun a => by fin_cases a <;> rfl

/-- Both products contract the left operand's second axis with the right operand's first, no batch axes. -/
theorem plain_block : Cert.PlainDot.IsPlain dot_S5000x256_S256x128_S5000x128_1_0_0_1_n_n := ⟨rfl, rfl, rfl, rfl, rfl, rfl⟩
theorem plain_whole : Cert.PlainDot.IsPlain Cert.ReferenceIdeal.dot_S100000x256_S256x128_S100000x128_1_0_0_1_n_n := ⟨rfl, rfl, rfl, rfl, rfl, rfl⟩

/-- The body's value at row p, column c of the block. -/
theorem pay_apply (x0 : Vec Ideal S5000x256 .f32) (x1 : Vec Ideal S256x128 .f32) (p : Fin 5000) (c : Fin 128) :
    k0_pay1 x0 x1 (ix2 p c) = ∑ q : Fin 256, x0 (ix2 p q) * x1 (ix2 q c) := by
  unfold k0_pay1
  exact Cert.PlainDot.matmul_zero_apply plain_block none (truncf .bf16 x0 _) (truncf .bf16 x1 _) p c

/-- The host's product at an entry of row P, column c. -/
theorem host_apply (x : FVec Ideal Cert.ReferenceIdeal.S100000x256 .f32) (w : FVec Ideal Cert.ReferenceIdeal.S256x128 .f32)
    (i : Cert.ReferenceIdeal.S100000x128.Idx) (P : Fin 100000) (c : Fin 128) (hP : (i 0).val = P.val) (hc : (i 1).val = c.val) :
    Cert.Stages.dense1 x w i = ∑ q : Fin 256, x (ix2 P q) * w (ix2 q c) := by
  have hi : i = ix2 P c := funext fun a => Fin.ext (by
    match a with
    | ⟨0, _⟩ => exact hP
    | ⟨1, _⟩ => exact hc)
  rw [hi]
  unfold Cert.Stages.dense1
  exact Cert.PlainDot.dotGeneral_apply plain_whole none x w P c

/-- The printed index maps over the grid: the left operand's and the output's row block is the point's number,
    every column block is 0, and the right operand is always block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What a point writes back is its block of the host's product of the arrays the region was entered with. -/
theorem flushed_eq (c : Dev nD) (t : Fin cfg0.N) :
    (dat0 V c).flushed 2 t = ((cfg0.win 2).blk t).view.read (Elt Ideal) (Cert.Stages.dense1 (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  obtain ⟨p, cc, rfl⟩ : ∃ (p : Fin 5000) (cc : Fin 128), j = ix2 p cc := ⟨j 0, j 1, eq_ix2 j⟩
  have htl : t.val < 20 := lt_of_lt_of_eq t.isLt N_0
  have hP : t.val * 5000 + p.val < 100000 := by have := p.isLt; omega
  show k0_pay1 (iblk0 V c 0 t) (iblk0 V c 1 t) (ix2 p cc)
    = Cert.Stages.dense1 (V c main_arg0) (V c main_arg2) (((cfg0.win 2).blk t).view.emb (ix2 p cc))
  rw [pay_apply, host_apply (V c main_arg0) (V c main_arg2) (((cfg0.win 2).blk t).view.emb (ix2 p cc)) ⟨t.val * 5000 + p.val, hP⟩ cc
    (by show win0_2.index t (0 : Fin 2) * 5000 + 1 * p.val = t.val * 5000 + p.val; rw [e4]; omega)
    (by show win0_2.index t (1 : Fin 2) * 128 + 1 * cc.val = cc.val; rw [e5]; omega)]
  have h0 : ∀ q : Fin 256, ((cfg0.win 0).blk t).view.emb (ix2 p q) = (ix2 (⟨t.val * 5000 + p.val, hP⟩ : Fin 100000) q : S100000x256.Idx) := fun q => by
    funext a; apply Fin.ext
    match a with
    | ⟨0, _⟩ => show win0_0.index t (0 : Fin 2) * 5000 + 1 * p.val = t.val * 5000 + p.val; rw [e0]; omega
    | ⟨1, _⟩ => show win0_0.index t (1 : Fin 2) * 256 + 1 * q.val = q.val; rw [e1]; omega
  have h1 : ∀ q : Fin 256, ((cfg0.win 1).blk t).view.emb (ix2 q cc) = (ix2 q cc : S256x128.Idx) := fun q => by
    funext a; apply Fin.ext
    match a with
    | ⟨0, _⟩ => show win0_1.index t (0 : Fin 2) * 256 + 1 * q.val = q.val; rw [e2]; omega
    | ⟨1, _⟩ => show win0_1.index t (1 : Fin 2) * 128 + 1 * cc.val = cc.val; rw [e3]; omega
  have key : ∀ (A : FVec Ideal S100000x256 .f32) (B : FVec Ideal S256x128 .f32),
      ∑ q : Fin 256, A (((cfg0.win 0).blk t).view.emb (ix2 p q)) * B (((cfg0.win 1).blk t).view.emb (ix2 q cc))
        = ∑ q : Fin 256, A (ix2 (⟨t.val * 5000 + p.val, hP⟩ : Fin 100000) q) * B (ix2 q cc) := by
    intro A B; exact Finset.sum_congr rfl fun q _ => by rw [h0 q, h1 q]
  exact key (V c main_arg0) (V c main_arg2)

/-- An index of the array lies in a point's block iff each coordinate lies in the block's range. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- The 20 row blocks cover the array: row n is in block n / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < cfg0.N := lt_of_lt_of_eq (by omega : (i 0).val / 5000 < 20) N_0.symm
  obtain ⟨e0, e1, e2, e3, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- The region's output array, after the region, is the host's product of the arrays it was entered with. -/
theorem final (c : Dev nD) :
    (dat0 V c).arrAt 2 cfg0.N = Cert.Stages.dense1 (V c main_arg0) (V c main_arg2) :=
  (dat0 V c).arrAt_eq_of_cover 2 _ (fun t _ => flushed_eq V c t) cover

end Cert.KernelIdeal.Region0

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.Region1.lean ====
/-
  The second region: the bias added and the ramp applied, block by block.

  The region walks the [100000, 128] aggregate in 20 blocks of 5000 rows; at each block it adds the bias row to
  every row and takes the maximum with zero, and writes the block back in place. Every entry (n, q) of the
  result therefore holds max(a[n, q] + b[0, q], 0), which is what the host's whole-array operations
  (broadcast the row down the rows, add, maximum with a zero splat) give.
-/
import proofs.«132702_j89833535963136_1_alg».proof.Proof.Gen.KernelIdeal.Frame
import proofs.«132702_j89833535963136_1_alg».proof.Proof.Gen.ReferenceIdeal
import proofs.«132702_j89833535963136_1_alg».proof.Proof.Stages
import proofs.«132702_j89833535963136_1_alg».proof.Proof.LibBroadcast
import Idealize.ShloMosaic.Lib.Pipeline.Value
import Idealize.ShloMosaic.Lib.ValueIdx
import Idealize.ShloMosaic.Lib.ValueLayout

set_option maxRecDepth 16384

noncomputable section

namespace Cert.KernelIdeal.Region1

open Idealize.ShloMosaic Idealize.ShloMosaic.ValueIdx Idealize.ShloMosaic.TcCoe Idealize.SL.Sem
open Cert.KernelIdeal Cert.KernelIdeal.Gen Cert.KernelIdeal.Facts₀ Cert.KernelIdeal.Facts

theorem hz : (![0, 0] : Fin 2 → Nat) = fun _ => 0 := funext fun a => by fin_cases a <;> rfl

/-- The body's value at row p, lane q: the block's entry plus the bias row's entry q, against zero. -/
theorem pay_apply (x0 : Vec Ideal S5000x128 .f32) (x1 : Vec Ideal S1x128 .f32) (p : Fin 5000) (q : Fin 128) :
    k1_pay1 x0 x1 (ix2 p q) = max (x0 (ix2 p q) + x1 (ix2 (0 : Fin 1) q)) (Ideal.ofBits .f32 0x00000000#32) := by
  unfold k1_pay1
  simp only [shapeCast_self]
  show max (x0 (ix2 p q) + broadcastTo S5000x128 x1 _ (ix2 p q)) _ = _
  rw [broadcastTo_apply x1 _ (ix2 p q) (ix2 (0 : Fin 1) q) (fun a => by
    match a with
    | ⟨0, _⟩ => show (0 : ℕ) = if (1 : ℕ) = 1 then 0 else _; rw [if_pos rfl]
    | ⟨1, _⟩ => show q.val = if (128 : ℕ) = 1 then 0 else q.val; rw [if_neg (by decide)])]
  rfl

/-- The host's stage at an entry of lane q. -/
theorem host_apply (a : FVec Ideal Cert.ReferenceIdeal.S100000x128 .f32) (brow : FVec Ideal Cert.ReferenceIdeal.S1x128 .f32)
    (i : Cert.ReferenceIdeal.S100000x128.Idx) (q : Fin 128) (hq : (i 1).val = q.val) :
    Cert.Stages.biasRelu a brow i = max (a i + brow (ix2 (0 : Fin 1) q)) (Ideal.ofBits .f32 0x00000000#32) := by
  unfold Cert.Stages.biasRelu
  show max (a i + broadcastInDim Cert.ReferenceIdeal.S100000x128 ![0, 1] _ brow i) (broadcastInDim Cert.ReferenceIdeal.S100000x128 ![] _ (constant (F := Ideal) Cert.ReferenceIdeal.S_ .f32 0x00000000#32) i) = _
  rw [broadcastInDim_apply ![0, 1] _ brow i (ix2 (0 : Fin 1) q) (fun a => by
    match a with
    | ⟨0, _⟩ => show (0 : ℕ) = if (1 : ℕ) = 1 then 0 else _; rw [if_pos rfl]
    | ⟨1, _⟩ => show q.val = if (128 : ℕ) = 1 then 0 else (i 1).val; rw [if_neg (by decide), hq]),
    Cert.Bcast.scalar_apply]
  rfl

/-- The printed index maps over the grid: the row block is the point's number, the column block is 0, and
    the bias row is always block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What a point writes back is its block of the host's stage of the arrays the region was entered with. -/
theorem flushed_eq (c : Dev nD) (t : Fin cfg1.N) :
    (dat1 V c).flushed 2 t = ((cfg1.win 2).blk t).view.read (Elt Ideal) (Cert.Stages.biasRelu (V c main_v42) (V c main_v43)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = Cert.Stages.biasRelu (V c main_v42) (V c main_v43) (((cfg1.win 2).blk t).view.emb (ix2 p q))
  rw [pay_apply, host_apply (V c main_v42) (V c main_v43) (((cfg1.win 2).blk t).view.emb (ix2 p q)) q (by
    show win1_2.index t (1 : Fin 2) * 128 + 1 * q.val = q.val
    rw [e5]; omega)]
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; rw [e0, e4]
    | ⟨1, _⟩ => show win1_0.index t (1 : Fin 2) * 128 + 1 * q.val = win1_2.index t (1 : Fin 2) * 128 + 1 * q.val; rw [e1, e5]
  have h1 : ((cfg1.win 1).blk t).view.emb (ix2 (0 : Fin 1) q) = (ix2 (0 : Fin 1) q : S1x128.Idx) := by
    funext a; apply Fin.ext
    match a with
    | ⟨0, _⟩ => show win1_1.index t (0 : Fin 2) * 1 + 1 * 0 = 0; rw [e2]
    | ⟨1, _⟩ => show win1_1.index t (1 : Fin 2) * 128 + 1 * q.val = q.val; rw [e3]; omega
  have key : ∀ (A : FVec Ideal S100000x128 .f32) (B : FVec Ideal S1x128 .f32),
      max (A (((cfg1.win 0).blk t).view.emb (ix2 p q)) + B (((cfg1.win 1).blk t).view.emb (ix2 (0 : Fin 1) q))) (Ideal.ofBits .f32 0x00000000#32)
        = max (A (((cfg1.win 2).blk t).view.emb (ix2 p q)) + B (ix2 (0 : Fin 1) q)) (Ideal.ofBits .f32 0x00000000#32) := by
    intro A B; rw [h0, h1]
  exact key (V c main_v42) (V c main_v43)

/-- An index of the array lies in a point's block iff each coordinate lies in the block's range. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- The 20 row blocks cover the array: row n is in block n / 5000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have ht : (i 0).val / 5000 < cfg1.N := lt_of_lt_of_eq (by omega : (i 0).val / 5000 < 20) N_1.symm
  obtain ⟨e0, e1, e2, e3, e4, e5⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]; omega

/-- The region's output array, after the region, is the host's stage of the arrays it was entered with. -/
theorem final (c : Dev nD) :
    (dat1 V c).arrAt 2 cfg1.N = Cert.Stages.biasRelu (V c main_v42) (V c main_v43) :=
  (dat1 V c).arrAt_eq_of_cover 2 _ (fun t _ => flushed_eq V c t) cover

end Cert.KernelIdeal.Region1

end
-- ==== Proof.Region2.lean ====
/-
  The third region: h · W₂, block by block.

  The region walks the [100000, 128] left operand in 20 blocks of 5000 rows, with the whole [128, 40] right operand
  at every point; at each block it forms the product of the block with the right operand into a zero
  accumulator (the change of float format of the operands is the identity on the extended reals) and writes
  the [5000, 40] result block back. Row n = 5000·t + p of the output therefore holds, at column c, the sum over q of
  l[n, q] · r[q, c]: the host's one whole product.
-/
import proofs.«132702_j89833535963136_1_alg».proof.Proof.Gen.KernelIdeal.Frame
import proofs.«132702_j89833535963136_1_alg».proof.Proof.Gen.ReferenceIdeal
import proofs.«132702_j89833535963136_1_alg».proof.Proof.Stages
import proofs.«132702_j89833535963136_1_alg».proof.Proof.LibPlainDot
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region2

open Idealize.ShloMosaic Idealize.ShloMosaic.ValueIdx Idealize.ShloMosaic.TcCoe Idealize.SL.Sem
open Cert.KernelIdeal Cert.KernelIdeal.Gen

theorem hz : (![0, 0] : Fin 2 → Nat) = fun _ => 0 := funext fun a => by fin_cases a <;> rfl

/-- Both products contract the left operand's second axis with the right operand's first, no batch axes. -/
theorem plain_block : Cert.PlainDot.IsPlain dot_S5000x128_S128x40_S5000x40_1_0_0_1_n_n := ⟨rfl, rfl, rfl, rfl, rfl, rfl⟩
theorem plain_whole : Cert.PlainDot.IsPlain Cert.ReferenceIdeal.dot_S100000x128_S128x40_S100000x40_1_0_0_1_n_n := ⟨rfl, rfl, rfl, rfl, rfl, rfl⟩

/-- The body's value at row p, column c of the block. -/
theorem pay_apply (x0 : Vec Ideal S5000x128 .f32) (x1 : Vec Ideal S128x40 .f32) (p : Fin 5000) (c : Fin 40) :
    k2_pay1 x0 x1 (ix2 p c) = ∑ q : Fin 128, x0 (ix2 p q) * x1 (ix2 q c) := by
  unfold k2_pay1
  simp only [shapeCast_self]
  exact Cert.PlainDot.matmul_zero_apply plain_block none (truncf .bf16 x0 _) (truncf .bf16 x1 _) p c

/-- The host's product at an entry of row P, column c. -/
theorem host_apply (x : FVec Ideal Cert.ReferenceIdeal.S100000x128 .f32) (w : FVec Ideal Cert.ReferenceIdeal.S128x40 .f32)
    (i : Cert.ReferenceIdeal.S100000x40.Idx) (P : Fin 100000) (c : Fin 40) (hP : (i 0).val = P.val) (hc : (i 1).val = c.val) :
    Cert.Stages.dense2 x w i = ∑ q : Fin 128, x (ix2 P q) * w (ix2 q c) := by
  have hi : i = ix2 P c := funext fun a => Fin.ext (by
    match a with
    | ⟨0, _⟩ => exact hP
    | ⟨1, _⟩ => exact hc)
  rw [hi]
  unfold Cert.Stages.dense2
  exact Cert.PlainDot.dotGeneral_apply plain_whole none x w P c

/-- The printed index maps over the grid: the left operand's and the output's row block is the point's number,
    every column block is 0, and the right operand is always block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What a point writes back is its block of the host's product of the arrays the region was entered with. -/
theorem flushed_eq (c : Dev nD) (t : Fin cfg2.N) :
    (dat2 V c).flushed 2 t = ((cfg2.win 2).blk t).view.read (Elt Ideal) (Cert.Stages.dense2 (V c main_v44) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x40) hz]
  obtain ⟨e0, e1, e2, e3, e4, e5⟩ := idx_facts t
  funext j
  obtain ⟨p, cc, rfl⟩ : ∃ (p : Fin 5000) (cc : Fin 40), j = ix2 p cc := ⟨j 0, j 1, eq_ix2 j⟩
  have htl : t.val < 20 := lt_of_lt_of_eq t.isLt N_2
  have hP : t.val * 5000 + p.val < 100000 := by have := p.isLt; omega
  show k2_pay1 (iblk2 V c 0 t) (iblk2 V c 1 t) (ix2 p cc)
    = Cert.Stages.dense2 (V c main_v44) (V c main_arg4) (((cfg2.win 2).blk t).view.emb (ix2 p cc))
  rw [pay_apply, host_apply (V c main_v44) (V c main_arg4) (((cfg2.win 2).blk t).view.emb (ix2 p cc)) ⟨t.val * 5000 + p.val, hP⟩ cc
    (by show win2_2.index t (0 : Fin 2) * 5000 + 1 * p.val = t.val * 5000 + p.val; rw [e4]; omega)
    (by show win2_2.index t (1 : Fin 2) * 40 + 1 * cc.val = cc.val; rw [e5]; omega)]
  have h0 : ∀ q : Fin 128, ((cfg2.win 0).blk t).view.emb (ix2 p q) = (ix2 (⟨t.val * 5000 + p.val, hP⟩ : Fin 100000) q : S100000x128.Idx) := fun q => by
    funext a; apply Fin.ext
    match a with
    | ⟨0, _⟩ => show win2_0.index t (0 : Fin 2) * 5000 + 1 * p.val = t.val * 5000 + p.val; rw [e0]; omega
    | ⟨1, _⟩ => show win2_0.index t (1 : Fin 2) * 128 + 1 * q.val = q.val; rw [e1]; omega
  have h1 : ∀ q : Fin 128, ((cfg2.win 1).blk t).view.emb (ix2 q cc) = (ix2 q cc : S128x40.Idx) := fun q => by
    funext a; apply Fin.ext
    match a with
    | ⟨0, _⟩ => show win2_1.index t (0 : Fin 2) * 128 + 1 * q.val = q.val; rw [e2]; omega
    | ⟨1, _⟩ => show win2_1.index t (1 : Fin 2) * 40 + 1 * cc.val = cc.val; rw [e3]; omega
  have key : ∀ (A : FVec Ideal S100000x128 .f32) (B : FVec Ideal S128x40 .f32),
      ∑ q : Fin 128, A (((cfg2.win 0).blk t).view.emb (ix2 p q)) * B (((cfg2.win 1).blk t).view.emb (ix2 q cc))
        = ∑ q : Fin 128, A (ix2 (⟨t.val * 5000 + p.val, hP⟩ : Fin 100000) q) * B (ix2 q cc) := by
    intro A B; exact Finset.sum_congr rfl fun q _ => by rw [h0 q, h1 q]
  exact key (V c main_v44) (V c main_arg4)

/-- An index of the array lies in a point's block iff each coordinate lies in the block's range. -/
theorem mem_blk (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v45).slice (win2_2.rect t)).set ↔ _
  rw [View.set_slice_whole, Rect.mem_set_unit]
  exact Iff.rfl

/-- The 20 row blocks cover the array: row n is in block n / 5000. -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have ht : (i 0).val / 5000 < cfg2.N := lt_of_lt_of_eq (by omega : (i 0).val / 5000 < 20) N_2.symm
  obtain ⟨e0, e1, e2, e3, e4, e5⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 40 ≤ (i 1).val ∧ (i 1).val < win2_2.index ⟨(i 0).val / 5000, ht⟩ (1 : Fin 2) * 40 + 40
    rw [e5]; omega

/-- The region's output array, after the region, is the host's product of the arrays it was entered with. -/
theorem final (c : Dev nD) :
    (dat2 V c).arrAt 2 cfg2.N = Cert.Stages.dense2 (V c main_v44) (V c main_arg4) :=
  (dat2 V c).arrAt_eq_of_cover 2 _ (fun t _ => flushed_eq V c t) cover

end Cert.KernelIdeal.Region2

end
-- ==== Proof.KernelValue.lean ====
/-
  The idealized kernel program's result as a function of its arguments.

  The generated frame follows the buffer contents through the program's seven segments. Here each boundary's
  contents are read at the buffers the later segments use: after the first host stretch the edge endpoints with
  self-loops and the normaliser as functions of the edge list; after each region its output array as the host's
  whole-array stage of its inputs (the four region modules); after each later host stretch the aggregation of
  the previous region's output, operation by operation the reference's own. A bias enters its region reshaped to
  one row, which is the same array as the reference's broadcast of it to one row.
-/
import proofs.«132702_j89833535963136_1_alg».proof.Proof.Gen.KernelIdeal.Frame
import proofs.«132702_j89833535963136_1_alg».proof.Proof.Gen.ReferenceIdeal
import proofs.«132702_j89833535963136_1_alg».proof.Proof.Stages
import proofs.«132702_j89833535963136_1_alg».proof.Proof.LibHostWalk
import proofs.«132702_j89833535963136_1_alg».proof.Proof.LibCastBroadcast
import proofs.«132702_j89833535963136_1_alg».proof.Proof.Region0
import proofs.«132702_j89833535963136_1_alg».proof.Proof.Region1
import proofs.«132702_j89833535963136_1_alg».proof.Proof.Region2

set_option maxRecDepth 16384

noncomputable section

namespace Cert.KernelIdeal.Result

open Idealize.ShloMosaic Idealize.ShloMosaic.TcCoe Idealize.ShloMosaic.StableHlo Idealize.SL.Sem
open Cert.KernelIdeal Cert.KernelIdeal.Gen Cert.HostWalk

variable (m : (ℓ : Loc nD τ sig) → Buf (Elt Ideal) ℓ) (ρ : Dev nD → PrngReg) (c : Dev nD)

/-! ## After the first host stretch -/

theorem W1_arg0 : W1 (F := Ideal) m ρ c (Proc.devRef .tc main_arg0) = m ((c : Thread nD τ).loc main_arg0) := by
  show StableHlo.after hostOps0 (W0 m ρ c) (Proc.devRef .tc main_arg0) = _
  walk_back [hostOps0]
theorem W1_arg2 : W1 (F := Ideal) m ρ c (Proc.devRef .tc main_arg2) = m ((c : Thread nD τ).loc main_arg2) := by
  show StableHlo.after hostOps0 (W0 m ρ c) (Proc.devRef .tc main_arg2) = _
  walk_back [hostOps0]
theorem W1_arg3 : W1 (F := Ideal) m ρ c (Proc.devRef .tc main_arg3) = m ((c : Thread nD τ).loc main_arg3) := by
  show StableHlo.after hostOps0 (W0 m ρ c) (Proc.devRef .tc main_arg3) = _
  walk_back [hostOps0]
theorem W1_arg4 : W1 (F := Ideal) m ρ c (Proc.devRef .tc main_arg4) = m ((c : Thread nD τ).loc main_arg4) := by
  show StableHlo.after hostOps0 (W0 m ρ c) (Proc.devRef .tc main_arg4) = _
  walk_back [hostOps0]
theorem W1_arg5 : W1 (F := Ideal) m ρ c (Proc.devRef .tc main_arg5) = m ((c : Thread nD τ).loc main_arg5) := by
  show StableHlo.after hostOps0 (W0 m ρ c) (Proc.devRef .tc main_arg5) = _
  walk_back [hostOps0]

/-- The edge sources followed by the self-loops. -/
theorem W1_v3 : W1 (F := Ideal) m ρ c (Proc.devRef .tc main_v3) = Cert.Stages.ends0 (m ((c : Thread nD τ).loc main_arg1)) := by
  show StableHlo.after hostOps0 (W0 m ρ c) (Proc.devRef .tc main_v3) = _
  walk_back [hostOps0]
  rfl
/-- The edge targets followed by the self-loops. -/
theorem W1_v6 : W1 (F := Ideal) m ρ c (Proc.devRef .tc main_v6) = Cert.Stages.ends1 (m ((c : Thread nD τ).loc main_arg1)) := by
  show StableHlo.after hostOps0 (W0 m ρ c) (Proc.devRef .tc main_v6) = _
  walk_back [hostOps0]
  rfl
/-- The symmetric normaliser of every edge. -/
theorem W1_v28 : W1 (F := Ideal) m ρ c (Proc.devRef .tc main_v28) = Cert.Stages.norm (m ((c : Thread nD τ).loc main_arg1)) := by
  show StableHlo.after hostOps0 (W0 m ρ c) (Proc.devRef .tc main_v28) = _
  walk_back [hostOps0]
  rfl

/-! ## After the first region: x · W₁ -/

theorem W2_v29 : W2 (F := Ideal) m ρ c (Proc.devRef .tc main_v29) = Cert.Stages.dense1 (m ((c : Thread nD τ).loc main_arg0)) (m ((c : Thread nD τ).loc main_arg2)) :=
  (W2_arr m ρ c 2).trans ((Region0.final (V1 m ρ) c).trans
    (congrArg₂ Cert.Stages.dense1 (W1_arg0 m ρ c) (W1_arg2 m ρ c)))
theorem W2_v3 : W2 (F := Ideal) m ρ c (Proc.devRef .tc main_v3) = W1 m ρ c (Proc.devRef .tc main_v3) :=
  W2_of_ne m ρ c main_v3 (by decide)
theorem W2_v6 : W2 (F := Ideal) m ρ c (Proc.devRef .tc main_v6) = W1 m ρ c (Proc.devRef .tc main_v6) :=
  W2_of_ne m ρ c main_v6 (by decide)
theorem W2_v28 : W2 (F := Ideal) m ρ c (Proc.devRef .tc main_v28) = W1 m ρ c (Proc.devRef .tc main_v28) :=
  W2_of_ne m ρ c main_v28 (by decide)
theorem W2_arg3 : W2 (F := Ideal) m ρ c (Proc.devRef .tc main_arg3) = W1 m ρ c (Proc.devRef .tc main_arg3) :=
  W2_of_ne m ρ c main_arg3 (by decide)
theorem W2_arg4 : W2 (F := Ideal) m ρ c (Proc.devRef .tc main_arg4) = W1 m ρ c (Proc.devRef .tc main_arg4) :=
  W2_of_ne m ρ c main_arg4 (by decide)
theorem W2_arg5 : W2 (F := Ideal) m ρ c (Proc.devRef .tc main_arg5) = W1 m ρ c (Proc.devRef .tc main_arg5) :=
  W2_of_ne m ρ c main_arg5 (by decide)

/-! ## After the second host stretch: the first aggregation, and the first bias as a row -/

theorem W3_v42_raw : W3 (F := Ideal) m ρ c (Proc.devRef .tc main_v42)
    = Cert.Stages.agg128 (W2 m ρ c (Proc.devRef .tc main_v29)) (W2 m ρ c (Proc.devRef .tc main_v3)) (W2 m ρ c (Proc.devRef .tc main_v6)) (W2 m ρ c (Proc.devRef .tc main_v28)) := by
  show StableHlo.after hostOps1 (W2 m ρ c) (Proc.devRef .tc main_v42) = _
  walk_back [hostOps1]
  rfl
theorem W3_v42 : W3 (F := Ideal) m ρ c (Proc.devRef .tc main_v42)
    = Cert.Stages.agg128 (Cert.Stages.dense1 (m ((c : Thread nD τ).loc main_arg0)) (m ((c : Thread nD τ).loc main_arg2))) (Cert.Stages.ends0 (m ((c : Thread nD τ).loc main_arg1))) (Cert.Stages.ends1 (m ((c : Thread nD τ).loc main_arg1))) (Cert.Stages.norm (m ((c : Thread nD τ).loc main_arg1))) := by
  rw [W3_v42_raw, W2_v29, W2_v3, W2_v6, W2_v28, W1_v3, W1_v6, W1_v28]
theorem W3_v43_raw : W3 (F := Ideal) m ρ c (Proc.devRef .tc main_v43)
    = shapeCast S1x128 (W2 m ρ c (Proc.devRef .tc main_arg3)) Facts₀.shapeCasts_S128_S1x128 := by
  show StableHlo.after hostOps1 (W2 m ρ c) (Proc.devRef .tc main_v43) = _
  walk_back [hostOps1]
  rfl
theorem W3_v43 : W3 (F := Ideal) m ρ c (Proc.devRef .tc main_v43) = Cert.Stages.row128 (m ((c : Thread nD τ).loc main_arg3)) := by
  rw [W3_v43_raw, W2_arg3, W1_arg3]
  exact Cert.CastBroadcast.row_eq (by decide) _ _ _
theorem W3_v3 : W3 (F := Ideal) m ρ c (Proc.devRef .tc main_v3) = W2 m ρ c (Proc.devRef .tc main_v3) := by
  show StableHlo.after hostOps1 (W2 m ρ c) (Proc.devRef .tc main_v3) = _
  walk_back [hostOps1]
theorem W3_v6 : W3 (F := Ideal) m ρ c (Proc.devRef .tc main_v6) = W2 m ρ c (Proc.devRef .tc main_v6) := by
  show StableHlo.after hostOps1 (W2 m ρ c) (Proc.devRef .tc main_v6) = _
  walk_back [hostOps1]
theorem W3_v28 : W3 (F := Ideal) m ρ c (Proc.devRef .tc main_v28) = W2 m ρ c (Proc.devRef .tc main_v28) := by
  show StableHlo.after hostOps1 (W2 m ρ c) (Proc.devRef .tc main_v28) = _
  walk_back [hostOps1]
theorem W3_arg4 : W3 (F := Ideal) m ρ c (Proc.devRef .tc main_arg4) = W2 m ρ c (Proc.devRef .tc main_arg4) := by
  show StableHlo.after hostOps1 (W2 m ρ c) (Proc.devRef .tc main_arg4) = _
  walk_back [hostOps1]
theorem W3_arg5 : W3 (F := Ideal) m ρ c (Proc.devRef .tc main_arg5) = W2 m ρ c (Proc.devRef .tc main_arg5) := by
  show StableHlo.after hostOps1 (W2 m ρ c) (Proc.devRef .tc main_arg5) = _
  walk_back [hostOps1]

/-! ## After the second region (bias and ramp) and the third (h · W₂) -/

theorem W4_v44 : W4 (F := Ideal) m ρ c (Proc.devRef .tc main_v44)
    = Cert.Stages.biasRelu (Cert.Stages.agg128 (Cert.Stages.dense1 (m ((c : Thread nD τ).loc main_arg0)) (m ((c : Thread nD τ).loc main_arg2))) (Cert.Stages.ends0 (m ((c : Thread nD τ).loc main_arg1))) (Cert.Stages.ends1 (m ((c : Thread nD τ).loc main_arg1))) (Cert.Stages.norm (m ((c : Thread nD τ).loc main_arg1)))) (Cert.Stages.row128 (m ((c : Thread nD τ).loc main_arg3))) :=
  (W4_arr m ρ c 2).trans ((Region1.final (V3 m ρ) c).trans
    (congrArg₂ Cert.Stages.biasRelu (W3_v42 m ρ c) (W3_v43 m ρ c)))
theorem W4_v3 : W4 (F := Ideal) m ρ c (Proc.devRef .tc main_v3) = W3 m ρ c (Proc.devRef .tc main_v3) :=
  W4_of_ne m ρ c main_v3 (by decide)
theorem W4_v6 : W4 (F := Ideal) m ρ c (Proc.devRef .tc main_v6) = W3 m ρ c (Proc.devRef .tc main_v6) :=
  W4_of_ne m ρ c main_v6 (by decide)
theorem W4_v28 : W4 (F := Ideal) m ρ c (Proc.devRef .tc main_v28) = W3 m ρ c (Proc.devRef .tc main_v28) :=
  W4_of_ne m ρ c main_v28 (by decide)
theorem W4_arg4 : W4 (F := Ideal) m ρ c (Proc.devRef .tc main_arg4) = W3 m ρ c (Proc.devRef .tc main_arg4) :=
  W4_of_ne m ρ c main_arg4 (by decide)
theorem W4_arg5 : W4 (F := Ideal) m ρ c (Proc.devRef .tc main_arg5) = W3 m ρ c (Proc.devRef .tc main_arg5) :=
  W4_of_ne m ρ c main_arg5 (by decide)

theorem W5_v45 : W5 (F := Ideal) m ρ c (Proc.devRef .tc main_v45)
    = Cert.Stages.dense2 (Cert.Stages.biasRelu (Cert.Stages.agg128 (Cert.Stages.dense1 (m ((c : Thread nD τ).loc main_arg0)) (m ((c : Thread nD τ).loc main_arg2))) (Cert.Stages.ends0 (m ((c : Thread nD τ).loc main_arg1))) (Cert.Stages.ends1 (m ((c : Thread nD τ).loc main_arg1))) (Cert.Stages.norm (m ((c : Thread nD τ).loc main_arg1)))) (Cert.Stages.row128 (m ((c : Thread nD τ).loc main_arg3)))) (m ((c : Thread nD τ).loc main_arg4)) :=
  (W5_arr m ρ c 2).trans ((Region2.final (V4 m ρ) c).trans
    (congrArg₂ Cert.Stages.dense2 (W4_v44 m ρ c) ((W4_arg4 m ρ c).trans ((W3_arg4 m ρ c).trans ((W2_arg4 m ρ c).trans (W1_arg4 m ρ c))))))
theorem W5_v3 : W5 (F := Ideal) m ρ c (Proc.devRef .tc main_v3) = W4 m ρ c (Proc.devRef .tc main_v3) :=
  W5_of_ne m ρ c main_v3 (by decide)
theorem W5_v6 : W5 (F := Ideal) m ρ c (Proc.devRef .tc main_v6) = W4 m ρ c (Proc.devRef .tc main_v6) :=
  W5_of_ne m ρ c main_v6 (by decide)
theorem W5_v28 : W5 (F := Ideal) m ρ c (Proc.devRef .tc main_v28) = W4 m ρ c (Proc.devRef .tc main_v28) :=
  W5_of_ne m ρ c main_v28 (by decide)
theorem W5_arg5 : W5 (F := Ideal) m ρ c (Proc.devRef .tc main_arg5) = W4 m ρ c (Proc.devRef .tc main_arg5) :=
  W5_of_ne m ρ c main_arg5 (by decide)

/-! ## After the third host stretch: the second aggregation, and the second bias as a row -/

theorem W6_v58_raw : W6 (F := Ideal) m ρ c (Proc.devRef .tc main_v58)
    = Cert.Stages.agg40 (W5 m ρ c (Proc.devRef .tc main_v45)) (W5 m ρ c (Proc.devRef .tc main_v3)) (W5 m ρ c (Proc.devRef .tc main_v6)) (W5 m ρ c (Proc.devRef .tc main_v28)) := by
  show StableHlo.after hostOps3 (W5 m ρ c) (Proc.devRef .tc main_v58) = _
  walk_back [hostOps3]
  rfl
theorem W6_v58 : W6 (F := Ideal) m ρ c (Proc.devRef .tc main_v58)
    = Cert.Stages.agg40 (Cert.Stages.dense2 (Cert.Stages.biasRelu (Cert.Stages.agg128 (Cert.Stages.dense1 (m ((c : Thread nD τ).loc main_arg0)) (m ((c : Thread nD τ).loc main_arg2))) (Cert.Stages.ends0 (m ((c : Thread nD τ).loc main_arg1))) (Cert.Stages.ends1 (m ((c : Thread nD τ).loc main_arg1))) (Cert.Stages.norm (m ((c : Thread nD τ).loc main_arg1)))) (Cert.Stages.row128 (m ((c : Thread nD τ).loc main_arg3)))) (m ((c : Thread nD τ).loc main_arg4)))
        (Cert.Stages.ends0 (m ((c : Thread nD τ).loc main_arg1))) (Cert.Stages.ends1 (m ((c : Thread nD τ).loc main_arg1))) (Cert.Stages.norm (m ((c : Thread nD τ).loc main_arg1))) := by
  rw [W6_v58_raw, W5_v45, W5_v3, W5_v6, W5_v28, W4_v3, W4_v6, W4_v28, W3_v3, W3_v6, W3_v28, W2_v3, W2_v6, W2_v28, W1_v3, W1_v6, W1_v28]
theorem W6_v59_raw : W6 (F := Ideal) m ρ c (Proc.devRef .tc main_v59)
    = shapeCast S1x40 (W5 m ρ c (Proc.devRef .tc main_arg5)) Facts₀.shapeCasts_S40_S1x40 := by
  show StableHlo.after hostOps3 (W5 m ρ c) (Proc.devRef .tc main_v59) = _
  walk_back [hostOps3]
  rfl
theorem W6_v59 : W6 (F := Ideal) m ρ c (Proc.devRef .tc main_v59) = Cert.Stages.row40 (m ((c : Thread nD τ).loc main_arg5)) := by
  rw [W6_v59_raw, W5_arg5, W4_arg5, W3_arg5, W2_arg5, W1_arg5]
  exact Cert.CastBroadcast.row_eq (by decide) _ _ _

end Cert.KernelIdeal.Result

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibHostRowFold.lean ====
/-
  The host's reductions along the second axis of a matrix, each read at one row, on the extended reals.

  A `stablehlo.reduce` of an [a, b] array across dimension 1 with a maximum body holds at row p the fold
  of `max` from the initial value over the entries (p, k), k < b; with an add body (the host's float sum)
  it holds the initial value plus the finite sum of the entries (p, k). These are the host-side companions
  of the vector unit's row maximum and row sum. Any extents; depends on no program.
-/
import Idealize.ShloMosaic.Lib.ValueIdx
import Idealize.ShloMosaic.PureOps.Ideal.Laws

noncomputable section

open scoped BigOperators

namespace Cert.HostRowFold

open Idealize.ShloMosaic Idealize.ShloMosaic.ValueIdx

/-- Dropping axis 1 of a rank-2 shape leaves a rank-1 shape, so the host's shape fact is also the vector
    unit's (which asks in addition that a result axis is left). -/
theorem reduces_of_to {a b : ℕ} (h' : (⟨2, ![a, b]⟩ : Shape).ReducesTo [1] ⟨1, ![a]⟩) :
    (⟨2, ![a, b]⟩ : Shape).Reduces [1] ⟨1, ![a]⟩ :=
  let ⟨e, hb⟩ := h'; ⟨e, Nat.one_pos, hb⟩

/-- The host's maximum along row `p`: the fold of `max` from the initial value over the row's entries. -/
theorem row_max {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduce FloatOps.maximumf x init h' hu (ix1 p)
      = (Finset.univ : Finset (Fin b)).fold max (init ix0) fun k => x (ix2 p k) := by
  rw [Host.reduce_eq_fold_single FloatOps.maximumf x init h' (reduces_of_to h') hu, eq_ix0 (Shape.Idx.first hu)]
  exact congrArg (fun f => Finset.fold max (init ix0) f (Finset.univ : Finset (Fin b)))
    (funext fun k => congrArg x (funext fun c => Fin.ext (by
      match c with
      | ⟨0, _⟩ => rfl
      | ⟨1, _⟩ => rfl)))

/-- The host's float sum along row `p`: the initial value plus the finite sum of the row's entries. -/
theorem row_sum {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduceAdd x init h' hu (ix1 p) = init ix0 + ∑ k : Fin b, x (ix2 p k) := by
  simp only [Host.reduceAdd, Ideal.hostReduceAdd_def]
  rw [Ideal.hostReduceAdd_single h' (reduces_of_to h'), eq_ix0 (Shape.Idx.first hu)]
  refine congrArg (init ix0 + ·) (Finset.sum_congr rfl fun k _ => ?_)
  exact congrArg x (funext fun c => Fin.ext (by
    match c with
    | ⟨0, _⟩ => rfl
    | ⟨1, _⟩ => rfl))

/-- From a zero initial value the host's float sum along row `p` is the finite sum of the row's entries. -/
theorem row_sum_zero {a b : ℕ} (x : FVec Ideal ⟨2, ![a, b]⟩ .f32)
    (h' : (⟨2, ![a, b]⟩ : Shape).ReducesTo [1] ⟨1, ![a]⟩) (hu : 0 < (⟨0, ![]⟩ : Shape).numel) (p : Fin a) :
    Host.reduceAdd x (constant (F := Ideal) ⟨0, ![]⟩ .f32 0x00000000#32) h' hu (ix1 p) = ∑ k : Fin b, x (ix2 p k) :=
  (row_sum x _ h' hu p).trans (by rw [constant_apply, Ideal.ofBits_zero_f32, zero_add])

end Cert.HostRowFold

end
-- ==== Proof.LibRowBias.lean ====
/-
  A bias row read at an index: a vector of length `C`, viewed as a `1×C` matrix and repeated down `R`
  rows, holds the vector's entry `c` at every position `(p, c)`.
-/
import Idealize.ShloMosaic.Lib.Pipeline.Value
import Idealize.ShloMosaic.Lib.ValueLayout
import Idealize.ShloMosaic.Lib.ValueIdx

noncomputable section

namespace Cert.RowBias

open Idealize.ShloMosaic Idealize.ShloMosaic.ValueIdx

/-- Entry `(p, c)` of a length-`C` vector reshaped to `1×C` and broadcast to `R×C` is the vector's entry `c`
    (for `C ≠ 1`: an axis of extent one would be read at coordinate zero, which is the same entry, but the
    broadcast rule branches on it). -/
theorem bias_rows {α : Type} {R C : Nat} (hC : C ≠ 1) (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) := by
  rw [broadcastTo_apply _ hb (ix2 p c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])]
  exact shapeCast_a_1a_apply v hs 0 c

end Cert.RowBias

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibRowLayer.lean ====
/-
  Two building blocks of a row-wise network layer, each in the vector unit's spelling and in the host's,
  read at one entry on the extended reals.

  * A dense layer: the product of an [R, K] array with a [K, N] weight matrix plus a length-N bias
    repeated down the rows holds at (p, c) the sum over q of l[p, q] · r[q, c], plus b[c].
  * A vector of length R laid out as a column and repeated across C lanes holds at (p, c) the vector's
    entry p (what a keep-dims row statistic is subtracted or divided by).
  Any extents (an extent that is not a unit axis is assumed different from 1, as the broadcast rules
  branch on it); depends on no program.
-/
import proofs.«132702_j89833535963136_1_alg».proof.Proof.LibPlainDot
import proofs.«132702_j89833535963136_1_alg».proof.Proof.LibRowBias
import proofs.«132702_j89833535963136_1_alg».proof.Proof.LibBroadcast
import proofs.«132702_j89833535963136_1_alg».proof.Proof.LibColumn

noncomputable section

open scoped BigOperators

namespace Cert.RowLayer

open Idealize.ShloMosaic Idealize.ShloMosaic.ValueIdx

/-- A dense layer in the vector unit's spelling: a matrix product into a zero accumulator plus the bias
    reshaped to a row and broadcast down the rows. -/
theorem kernel_dense {R K N : ℕ} {d : DotDims ⟨2, ![R, K]⟩ ⟨2, ![K, N]⟩ ⟨2, ![R, N]⟩} (hd : PlainDot.IsPlain d) (hN : N ≠ 1)
    (prec : Option ContractPrecision) {φ₁ φ₂ : FTy} (l : FVec Ideal ⟨2, ![R, K]⟩ φ₁) (r : FVec Ideal ⟨2, ![K, N]⟩ φ₂)
    (b : FVec Ideal ⟨1, ![N]⟩ .f32) (hs : (⟨1, ![N]⟩ : Shape).ShapeCasts ⟨2, ![1, N]⟩)
    (hb : (⟨2, ![1, N]⟩ : Shape).Broadcasts ⟨2, ![R, N]⟩) (p : Fin R) (c : Fin N) :
    addf (matmul d prec l r (constant ⟨2, ![R, N]⟩ .f32 0x00000000#32)) (broadcastTo ⟨2, ![R, N]⟩ (shapeCast ⟨2, ![1, N]⟩ b hs) hb) (ix2 p c)
      = (∑ q : Fin K, l (ix2 p q) * r (ix2 q c)) + b (ix1 c) :=
  congrArg₂ (· + ·) (PlainDot.matmul_zero_apply hd prec l r p c) (RowBias.bias_rows hN b hs hb p c)

/-- A dense layer in the host's spelling: a `dot_general` plus the bias broadcast to a row and then down the rows. -/
theorem host_dense {R K N : ℕ} {d : DotDims ⟨2, ![R, K]⟩ ⟨2, ![K, N]⟩ ⟨2, ![R, N]⟩} (hd : PlainDot.IsPlain d) (hN : N ≠ 1)
    (prec : Option ContractPrecision) (l : FVec Ideal ⟨2, ![R, K]⟩ .f32) (r : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![R, N]⟩ ![0, 1]) (p : Fin R) (c : Fin N) :
    addf (Host.dotGeneral d prec l r) (broadcastInDim ⟨2, ![R, N]⟩ ![0, 1] h2 (broadcastInDim ⟨2, ![1, N]⟩ ![1] h1 b)) (ix2 p c)
      = (∑ q : Fin K, l (ix2 p q) * r (ix2 q c)) + b (ix1 c) :=
  congrArg₂ (· + ·) (PlainDot.dotGeneral_apply hd prec l r p c) (Bcast.bias_rows_apply hN b h1 h2 p c)

/-- A vector as a column across the lanes, in the vector unit's spelling. -/
theorem kernel_across {α : Type} {R C : ℕ} (v : (⟨1, ![R]⟩ : Shape).Idx → α) (hs : (⟨1, ![R]⟩ : Shape).ShapeCasts ⟨2, ![R, 1]⟩)
    (hb : (⟨2, ![R, 1]⟩ : Shape).Broadcasts ⟨2, ![R, C]⟩) (p : Fin R) (c : Fin C) :
    broadcastTo ⟨2, ![R, C]⟩ (shapeCast ⟨2, ![R, 1]⟩ v hs) hb (ix2 p c) = v (ix1 p) :=
  (Column.broadcastTo_a1_ab_apply _ hb p c).trans (Column.shapeCast_a_a1_apply v hs p 0)

/-- A vector as a column across the lanes, in the host's spelling. -/
theorem host_across {α : Type} {R C : ℕ} (hR : R ≠ 1) (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (p : Fin R) (c : Fin C) :
    broadcastInDim ⟨2, ![R, C]⟩ ![0, 1] h2 (broadcastInDim ⟨2, ![R, 1]⟩ ![0] h1 v) (ix2 p c) = v (ix1 p) :=
  (Bcast.rows_of_col_apply hR _ h2 p c).trans (Bcast.col_apply hR v h1 p 0)

end Cert.RowLayer

end
-- ==== Proof.LibRowLogSoftmax.lean ====
/-
  Log-softmax along the rows of a matrix, in the vector unit's spelling and in the host's, read at one entry
  on the extended reals.

  Both lowerings of `log_softmax(x, axis = -1)` on an [R, C] array take the row's maximum as a fold of `max`
  from −∞ (the host once more against a −∞ splat, which changes nothing: a fold of `max` is at least the value
  it starts from), subtract it as a column repeated across the lanes, exponentiate, sum the row from zero, take
  the logarithm of that sum while it is still a column, and subtract it repeated across the lanes. At entry
  (p, c) each is the same function `logSoftmax` of row p:

      x[p, c] − M − log (∑ₖ exp (x[p, k] − M)),        M = max over k of x[p, k].

  The only law of the extended reals used is `b ≤ fold max b f`; otherwise the two spellings are the same
  operations in the same order. Any extents (the host's broadcast rule needs R ≠ 1); depends on no program.
-/
import proofs.«132702_j89833535963136_1_alg».proof.Proof.LibAxisFold
import proofs.«132702_j89833535963136_1_alg».proof.Proof.LibHostRowFold
import proofs.«132702_j89833535963136_1_alg».proof.Proof.LibRowLayer

noncomputable section

open scoped BigOperators

namespace Cert.RowLogSoftmax

open Idealize.ShloMosaic Idealize.ShloMosaic.ValueIdx

/-- −∞, as the f32 word both programs print. -/
abbrev ninf : EReal := Ideal.ofBits .f32 0xFF800000#32

/-- A row's maximum: the fold of `max` from −∞. -/
def top {n : ℕ} (l : Fin n → EReal) : EReal := (Finset.univ : Finset (Fin n)).fold max ninf l
/-- An entry shifted by the row's maximum. -/
def shifted {n : ℕ} (l : Fin n → EReal) (c : Fin n) : EReal := l c - top l
/-- The row's log-softmax: the shifted entry minus the logarithm of the sum of the shifted exponentials. -/
def logSoftmax {n : ℕ} (l : Fin n → EReal) (c : Fin n) : EReal :=
  shifted l c - Ideal.log (∑ k : Fin n, Ideal.exp (shifted l k))

/-- A fold of `max` is at least the value it starts from, so one more `max` against that value changes nothing. -/
theorem max_fold {n : ℕ} (b : EReal) (l : Fin n → EReal) :
    max b ((Finset.univ : Finset (Fin n)).fold max b l) = (Finset.univ : Finset (Fin n)).fold max b l :=
  max_eq_right ((Finset.le_fold_max b).mpr (Or.inl le_rfl))

section Kernel

variable {R C : ℕ} (lg : FVec Ideal ⟨2, ![R, C]⟩ .f32)
  (hr : (⟨2, ![R, C]⟩ : Shape).Reduces [1] ⟨1, ![R]⟩) (hφ : FKind.Formats .f32)
  (hmax : (0xFF800000#32 : BitVec (FTy.f32).bits) = FKind.maximumf.neutral .f32 hφ)
  (hadd : (0x00000000#32 : BitVec (FTy.f32).bits) = FKind.add.neutral .f32 hφ)
  (hs : (⟨1, ![R]⟩ : Shape).ShapeCasts ⟨2, ![R, 1]⟩) (hb : (⟨2, ![R, 1]⟩ : Shape).Broadcasts ⟨2, ![R, C]⟩)

/-- The entries shifted by their row's maximum, as the vector unit computes them. -/
abbrev kernelShift : FVec Ideal ⟨2, ![R, C]⟩ .f32 :=
  subf lg (broadcastTo ⟨2, ![R, C]⟩ (shapeCast ⟨2, ![R, 1]⟩
    (multiReduction .maximumf [1] ⟨1, ![R]⟩ lg 0xFF800000#32 hr hφ hmax) hs) hb)

/-- The vector unit's shifted entry at (p, c): the entry minus the maximum of row p. -/
theorem kernel_shift (p : Fin R) (c : Fin C) :
    kernelShift lg hr hφ hmax hs hb (ix2 p c) = shifted (fun k => lg (ix2 p k)) c :=
  congrArg (fun z : EReal => lg (ix2 p c) - z)
    ((RowLayer.kernel_across _ hs hb p c).trans (AxisFold.row_max lg 0xFF800000#32 hr hφ hmax p))

/-- The vector unit's log-softmax, at entry (p, c): the logarithm is taken of the row sums laid out as a
    column, and the column is then repeated across the lanes. -/
theorem kernel_logSoftmax (p : Fin R) (c : Fin C) :
    subf (kernelShift lg hr hφ hmax hs hb)
      (broadcastTo ⟨2, ![R, C]⟩ (log (shapeCast ⟨2, ![R, 1]⟩
        (multiReduction .add [1] ⟨1, ![R]⟩ (exp (kernelShift lg hr hφ hmax hs hb)) 0x00000000#32 hr hφ hadd) hs)) hb) (ix2 p c)
      = logSoftmax (fun k => lg (ix2 p k)) c :=
  congrArg₂ (fun a b : EReal => a - b) (kernel_shift lg hr hφ hmax hs hb p c)
    ((Column.broadcastTo_a1_ab_apply _ hb p c).trans
      (congrArg Ideal.log
        ((Column.shapeCast_a_a1_apply _ hs p 0).trans
          ((AxisFold.row_sum (exp (kernelShift lg hr hφ hmax hs hb)) hr hφ hadd p).trans
            (Finset.sum_congr rfl fun k _ => congrArg Ideal.exp (kernel_shift lg hr hφ hmax hs hb p k))))))

end Kernel

section Host

variable {R C : ℕ} (lg : FVec Ideal ⟨2, ![R, C]⟩ .f32)
  (h' : (⟨2, ![R, C]⟩ : Shape).ReducesTo [1] ⟨1, ![R]⟩) (hu : 0 < (⟨0, ![]⟩ : Shape).numel)
  (h0 : (⟨0, ![]⟩ : Shape).BroadcastsInDim ⟨1, ![R]⟩ ![])
  (h1 : (⟨1, ![R]⟩ : Shape).BroadcastsInDim ⟨2, ![R, 1]⟩ ![0])
  (h2 : (⟨2, ![R, 1]⟩ : Shape).BroadcastsInDim ⟨2, ![R, C]⟩ ![0, 1])

/-- The entries shifted by their row's maximum, as the host computes them (the maximum once more against a
    −∞ splat). -/
abbrev hostShift : FVec Ideal ⟨2, ![R, C]⟩ .f32 :=
  subf lg (broadcastInDim ⟨2, ![R, C]⟩ ![0, 1] h2 (broadcastInDim ⟨2, ![R, 1]⟩ ![0] h1
    (maximumf (broadcastInDim ⟨1, ![R]⟩ ![] h0 (constant (F := Ideal) ⟨0, ![]⟩ .f32 0xFF800000#32))
      (Host.reduce FloatOps.maximumf lg (constant (F := Ideal) ⟨0, ![]⟩ .f32 0xFF800000#32) h' hu))))

/-- The host's shifted entry at (p, c): the entry minus the maximum of row p; the extra `max` against −∞
    is absorbed because the fold already starts from −∞. -/
theorem host_shift (hR : R ≠ 1) (p : Fin R) (c : Fin C) :
    hostShift lg h' hu h0 h1 h2 (ix2 p c) = shifted (fun k => lg (ix2 p k)) c :=
  congrArg (fun z : EReal => lg (ix2 p c) - z)
    ((RowLayer.host_across hR _ h1 h2 p c).trans
      ((congrArg₂ max (Bcast.scalar_apply _ h0 (ix1 p)) (HostRowFold.row_max lg _ h' hu p)).trans
        (max_fold ninf fun k => lg (ix2 p k))))

/-- The host's log-softmax, at entry (p, c): the logarithm is taken of the row sums laid out as a column,
    between the two broadcasts. -/
theorem host_logSoftmax (hR : R ≠ 1) (p : Fin R) (c : Fin C) :
    subf (hostShift lg h' hu h0 h1 h2)
      (broadcastInDim ⟨2, ![R, C]⟩ ![0, 1] h2 (Host.log (broadcastInDim ⟨2, ![R, 1]⟩ ![0] h1
        (Host.reduceAdd (Host.exp (hostShift lg h' hu h0 h1 h2)) (constant (F := Ideal) ⟨0, ![]⟩ .f32 0x00000000#32) h' hu)))) (ix2 p c)
      = logSoftmax (fun k => lg (ix2 p k)) c :=
  congrArg₂ (fun a b : EReal => a - b) (host_shift lg h' hu h0 h1 h2 hR p c)
    ((Bcast.rows_of_col_apply hR _ h2 p c).trans
      (congrArg Ideal.log
        ((Bcast.col_apply hR _ h1 p 0).trans
          ((HostRowFold.row_sum_zero (Host.exp (hostShift lg h' hu h0 h1 h2)) h' hu p).trans
            (Finset.sum_congr rfl fun k _ => congrArg Ideal.exp (host_shift lg h' hu h0 h1 h2 hR p k))))))

end Host

end Cert.RowLogSoftmax

end
-- ==== Proof.Region3.lean ====
/-
  The fourth region: the bias added and the row-wise log-softmax taken, block by block.

  The region walks the [100000, 40] aggregate in 20 blocks of 5000 rows; at each block it adds the bias row to
  every row and replaces each row z by z − M − log (∑ₖ exp (z[k] − M)), M the row's maximum, and writes the block
  out. A row's log-softmax depends on that row alone, and every block holds whole rows, so entry (n, q) of the
  result is the log-softmax of row n of (a + b) at lane q: what the host's whole-array operations (broadcast the
  row down the rows, add, reduce each row by max and by sum, subtract) give.
-/
import proofs.«132702_j89833535963136_1_alg».proof.Proof.Gen.KernelIdeal.Frame
import proofs.«132702_j89833535963136_1_alg».proof.Proof.Gen.ReferenceIdeal
import proofs.«132702_j89833535963136_1_alg».proof.Proof.Stages
import proofs.«132702_j89833535963136_1_alg».proof.Proof.LibBroadcast
import proofs.«132702_j89833535963136_1_alg».proof.Proof.LibRowLogSoftmax
import Idealize.ShloMosaic.Lib.Pipeline.Value
import Idealize.ShloMosaic.Lib.ValueIdx
import Idealize.ShloMosaic.Lib.ValueLayout

set_option maxRecDepth 16384

noncomputable section

namespace Cert.KernelIdeal.Region3

open Idealize.ShloMosaic Idealize.ShloMosaic.ValueIdx Idealize.ShloMosaic.TcCoe Idealize.SL.Sem
open Cert.KernelIdeal Cert.KernelIdeal.Gen Cert.KernelIdeal.Facts₀ Cert.KernelIdeal.Facts

theorem hz : (![0, 0] : Fin 2 → Nat) = fun _ => 0 := funext fun a => by fin_cases a <;> rfl

/-- The body's value at row p, lane q: the log-softmax, at lane q, of the block's row p plus the bias row. -/
theorem pay_apply (x0 : Vec Ideal S5000x40 .f32) (x1 : Vec Ideal S1x40 .f32) (p : Fin 5000) (q : Fin 40) :
    k3_pay1 x0 x1 (ix2 p q)
      = Cert.RowLogSoftmax.logSoftmax (fun k : Fin 40 => x0 (ix2 p k) + x1 (ix2 (0 : Fin 1) k)) q := by
  unfold k3_pay1
  simp only [shapeCast_self]
  refine (Cert.RowLogSoftmax.kernel_logSoftmax (R := 5000) (C := 40)
    (addf x0 (broadcastTo S5000x40 x1 _)) _ (.inl rfl) rfl rfl _ _ p q).trans ?_
  refine congrArg (fun l => Cert.RowLogSoftmax.logSoftmax l q) (funext fun k => ?_)
  show x0 (ix2 p k) + broadcastTo S5000x40 x1 _ (ix2 p k) = _
  rw [broadcastTo_apply x1 _ (ix2 p k) (ix2 (0 : Fin 1) k) (fun a => by
    match a with
    | ⟨0, _⟩ => show (0 : ℕ) = if (1 : ℕ) = 1 then 0 else _; rw [if_pos rfl]
    | ⟨1, _⟩ => show k.val = if (40 : ℕ) = 1 then 0 else k.val; rw [if_neg (by decide)])]

/-- The host's stage at the entry of row P, lane q: the log-softmax, at lane q, of row P plus the bias row. -/
theorem host_apply (a : FVec Ideal Cert.ReferenceIdeal.S100000x40 .f32) (brow : FVec Ideal Cert.ReferenceIdeal.S1x40 .f32)
    (i : Cert.ReferenceIdeal.S100000x40.Idx) (P : Fin 100000) (q : Fin 40) (hP : (i 0).val = P.val) (hq : (i 1).val = q.val) :
    Cert.Stages.biasLogSoftmax a brow i
      = Cert.RowLogSoftmax.logSoftmax (fun k : Fin 40 => a (ix2 P k) + brow (ix2 (0 : Fin 1) k)) q := by
  have hi : i = ix2 P q := by
    funext ax; apply Fin.ext
    match ax with
    | ⟨0, _⟩ => exact hP
    | ⟨1, _⟩ => exact hq
  rw [hi]
  unfold Cert.Stages.biasLogSoftmax Cert.Stages.logSoftmaxRows Cert.Stages.shiftRows
  refine (Cert.RowLogSoftmax.host_logSoftmax (R := 100000) (C := 40)
    (addf a (broadcastInDim Cert.ReferenceIdeal.S100000x40 ![0, 1] _ brow)) _ _ _ _ _ (by decide) P q).trans ?_
  refine congrArg (fun l => Cert.RowLogSoftmax.logSoftmax l q) (funext fun k => ?_)
  show a (ix2 P k) + broadcastInDim Cert.ReferenceIdeal.S100000x40 ![0, 1] _ brow (ix2 P k) = _
  rw [broadcastInDim_apply ![0, 1] _ brow (ix2 P k) (ix2 (0 : Fin 1) k) (fun ax => by
    match ax with
    | ⟨0, _⟩ => show (0 : ℕ) = if (1 : ℕ) = 1 then 0 else _; rw [if_pos rfl]
    | ⟨1, _⟩ => show k.val = if (40 : ℕ) = 1 then 0 else k.val; rw [if_neg (by decide)])]

/-- The printed index maps over the grid: the row block is the point's number, the column block is 0, and
    the bias row is always block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What a point writes back is its block of the host's stage of the arrays the region was entered with:
    block t holds the whole rows t·5000 … t·5000 + 4999, and a row's log-softmax reads that row only. -/
theorem flushed_eq (c : Dev nD) (t : Fin cfg3.N) :
    (dat3 V c).flushed 2 t = ((cfg3.win 2).blk t).view.read (Elt Ideal) (Cert.Stages.biasLogSoftmax (V c main_v58) (V c main_v59)) := by
  show (cfg3.win 2).cut (grid3.coords t) ((dat3 V c).after 2 t) = _
  rw [after3_2]
  unfold out3_2
  rw [View.canon_unit_zero hz]
  simp only [View.ld_unit_zero (S := S5000x40) hz, View.ld_unit_zero (S := S1x40) hz]
  obtain ⟨e0, e1, e2, e3, e4, e5⟩ := idx_facts t
  funext j
  obtain ⟨p, q, rfl⟩ : ∃ (p : Fin 5000) (q : Fin 40), j = ix2 p q := ⟨j 0, j 1, eq_ix2 j⟩
  show k3_pay1 (iblk3 V c 0 t) (iblk3 V c 1 t) (ix2 p q)
    = Cert.Stages.biasLogSoftmax (V c main_v58) (V c main_v59) (((cfg3.win 2).blk t).view.emb (ix2 p q))
  have ht : t.val < 20 := lt_of_lt_of_eq t.isLt N_3
  have hP : t.val * 5000 + p.val < 100000 := by have := p.isLt; omega
  rw [pay_apply, host_apply (V c main_v58) (V c main_v59) (((cfg3.win 2).blk t).view.emb (ix2 p q)) ⟨t.val * 5000 + p.val, hP⟩ q
    (by show win3_2.index t (0 : Fin 2) * 5000 + 1 * p.val = t.val * 5000 + p.val
        rw [e4]; omega)
    (by show win3_2.index t (1 : Fin 2) * 40 + 1 * q.val = q.val
        rw [e5]; omega)]
  have h0 : ∀ k : Fin 40, ((cfg3.win 0).blk t).view.emb (ix2 p k)
      = (ix2 (⟨t.val * 5000 + p.val, hP⟩ : Fin 100000) k : S100000x40.Idx) := by
    intro k; funext a; apply Fin.ext
    match a with
    | ⟨0, _⟩ => show win3_0.index t (0 : Fin 2) * 5000 + 1 * p.val = t.val * 5000 + p.val; rw [e0]; omega
    | ⟨1, _⟩ => show win3_0.index t (1 : Fin 2) * 40 + 1 * k.val = k.val; rw [e1]; omega
  have h1 : ∀ k : Fin 40, ((cfg3.win 1).blk t).view.emb (ix2 (0 : Fin 1) k) = (ix2 (0 : Fin 1) k : S1x40.Idx) := by
    intro k; funext a; apply Fin.ext
    match a with
    | ⟨0, _⟩ => show win3_1.index t (0 : Fin 2) * 1 + 1 * 0 = 0; rw [e2]
    | ⟨1, _⟩ => show win3_1.index t (1 : Fin 2) * 40 + 1 * k.val = k.val; rw [e3]; omega
  have key : ∀ (A : FVec Ideal S100000x40 .f32) (B : FVec Ideal S1x40 .f32),
      Cert.RowLogSoftmax.logSoftmax (fun k : Fin 40 =>
          A (((cfg3.win 0).blk t).view.emb (ix2 p k)) + B (((cfg3.win 1).blk t).view.emb (ix2 (0 : Fin 1) k))) q
        = Cert.RowLogSoftmax.logSoftmax (fun k : Fin 40 =>
          A (ix2 (⟨t.val * 5000 + p.val, hP⟩ : Fin 100000) k) + B (ix2 (0 : Fin 1) k)) q := by
    intro A B
    exact congrArg (fun l => Cert.RowLogSoftmax.logSoftmax l q) (funext fun k => by rw [h0 k, h1 k])
  exact key (V c main_v58) (V c main_v59)

/-- An index of the array lies in a point's block iff each coordinate lies in the block's range. -/
theorem mem_blk (t : Fin cfg3.N) (i : S100000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v60).slice (win3_2.rect t)).set ↔ _
  rw [View.set_slice_whole, Rect.mem_set_unit]
  exact Iff.rfl

/-- The 20 row blocks cover the array: row n is in block n / 5000. -/
theorem cover (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have ht : (i 0).val / 5000 < cfg3.N := lt_of_lt_of_eq (by omega : (i 0).val / 5000 < 20) N_3.symm
  obtain ⟨e0, e1, e2, e3, e4, e5⟩ := idx_facts ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 40 ≤ (i 1).val ∧ (i 1).val < win3_2.index ⟨(i 0).val / 5000, ht⟩ (1 : Fin 2) * 40 + 40
    rw [e5]; omega

/-- The region's output array, after the region, is the host's stage of the arrays it was entered with. -/
theorem final (c : Dev nD) :
    (dat3 V c).arrAt 2 cfg3.N = Cert.Stages.biasLogSoftmax (V c main_v58) (V c main_v59) :=
  (dat3 V c).arrAt_eq_of_cover 2 _ (fun t _ => flushed_eq V c t) cover

end Cert.KernelIdeal.Region3

end
-- ==== Proof.KernelResult.lean ====
/-
  The idealized kernel program's result buffer ends at the two-layer network of its arguments.

  The last region takes the second aggregation and the second bias row to their row-wise log-softmax; with the
  contents the earlier segments leave (the boundary module), the result buffer after the run is the composition
  of all the stages, the same function of the six arguments the reference computes.
-/
import proofs.«132702_j89833535963136_1_alg».proof.Proof.KernelValue
import proofs.«132702_j89833535963136_1_alg».proof.Proof.Region3

set_option maxRecDepth 16384

noncomputable section

namespace Cert.KernelIdeal.Result

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The result buffer at the last boundary. -/
theorem result : W7 (F := Ideal) m ρ c (Proc.devRef .tc main_v60)
    = Cert.Stages.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 2).trans ((Region3.final (V6 m ρ) c).trans
    (congrArg₂ Cert.Stages.biasLogSoftmax (W6_v58 m ρ c) (W6_v59 m ρ c)))

end Cert.KernelIdeal.Result

end
-- ==== Proof.lean ====
/-
  A two-layer graph convolution: a Pallas kernel program against its jax.numpy reference, equal on the
  extended reals.

  Both programs append self-loops to the edge list, count degrees over the edge targets, form the symmetric
  normaliser norm[e] = d[src e] · d[dst e] with d = 1/√(max(deg, 1)), and compute
      log_softmax( A · relu( A · (x W₁) + b₁ ) W₂ + b₂ ),     (A · h)[n] = Σ_{e : dst e = n} h[src e] · norm[e],
  with the same gather, multiply and scatter-add operations for A. The kernel program runs the two dense
  products and the two bias stages as pipelined regions over 20 blocks of 5000 rows; the reference runs them as
  whole-array host operations. Block by block each region's output array is the host's stage of its input arrays
  (a product into a zero accumulator is the host's product, a change of float format is the identity, a lane
  maximum or sum is the host's reduction of the row), so the two results are the same composition of the same
  stages of the same arguments: no law of the extended reals beyond max(−∞, x) = x is used, and the
  precondition is never opened. The ideal pass rewrote nothing, so the kernel's idealization is the program's
  own text read on the extended reals.
-/
import proofs.«132702_j89833535963136_1_alg».proof.Defs
import proofs.«132702_j89833535963136_1_alg».proof.Proof.Gen.Kernel
import proofs.«132702_j89833535963136_1_alg».proof.Proof.Gen.Kernel.Skeleton
import proofs.«132702_j89833535963136_1_alg».proof.Proof.Gen.Kernel.Launch
import proofs.«132702_j89833535963136_1_alg».proof.Proof.Gen.Kernel.Points
import proofs.«132702_j89833535963136_1_alg».proof.Proof.Gen.Kernel.Frame
import proofs.«132702_j89833535963136_1_alg».proof.Proof.Gen.KernelIdeal
import proofs.«132702_j89833535963136_1_alg».proof.Proof.Gen.KernelIdeal.Skeleton
import proofs.«132702_j89833535963136_1_alg».proof.Proof.Gen.KernelIdeal.Launch
import proofs.«132702_j89833535963136_1_alg».proof.Proof.Gen.KernelIdeal.Points
import proofs.«132702_j89833535963136_1_alg».proof.Proof.Gen.KernelIdeal.Frame
import proofs.«132702_j89833535963136_1_alg».proof.Proof.Gen.ReferenceIdeal
import proofs.«132702_j89833535963136_1_alg».proof.Proof.Gen.Pre_finite_inputs
import proofs.«132702_j89833535963136_1_alg».proof.Proof.KernelRun
import proofs.«132702_j89833535963136_1_alg».proof.Proof.KernelResult
import proofs.«132702_j89833535963136_1_alg».proof.Proof.RefRun
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- The ideal pass rewrote no operation. -/
theorem preserves : Cert.preserves_Kernel_KernelIdeal := trivial

/-- From memories agreeing on the six arguments both programs end with the network's output of those arguments
    in their result buffers. -/
theorem algebraic : Cert.algebraic_KernelIdeal_ReferenceIdeal := by
  intro m ρ m' ρ' _ hagree
  refine ⟨fun c => Cert.Stages.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.Result.result m ρ c), (h c).2⟩)
      (Cert.KernelIdeal.Run.run_result m ρ)
  · refine (θ_run Cert.ReferenceIdeal.defs _ _).mono (fun r h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
